-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S16777216 : Shape := ⟨1, ![16777216]⟩
abbrev S128x4096 : Shape := ⟨2, ![128, 4096]⟩
abbrev S128x1 : Shape := ⟨2, ![128, 1]⟩
abbrev S128 : Shape := ⟨1, ![128]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x4096, .f32⟩
  | .hbm, ⟨5, _⟩ => ⟨S4096x4096, .f32⟩
  | .hbm, ⟨6, _⟩ => ⟨S16777216, .f32⟩
  | .hbm, ⟨7, _⟩ => ⟨S16777216, .f32⟩
  | .local _ .vmem, ⟨0, _⟩ => ⟨S128x4096, .f32⟩
  | .local _ .vmem, ⟨1, _⟩ => ⟨S128x4096, .f32⟩
  | .local _ .vmem, ⟨2, _⟩ => ⟨S128x1, .i32⟩
  | .local _ .vmem, ⟨3, _⟩ => ⟨S128x1, .i32⟩
  | .local _ .vmem, ⟨4, _⟩ => ⟨S1x4096, .i32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S4096x1 : S4096.ShapeCasts S4096x1
  shapeCasts_S4096_S1x4096 : S4096.ShapeCasts S1x4096
  shapeCasts_S4096x4096_S16777216 : S4096x4096.ShapeCasts S16777216
  inb_S128x4096_S128x4096_0_0 : ∀ a, (![0, 0] : Fin 2 → Nat) a + S128x4096.size a ≤ S128x4096.size a
  h_S128x4096 : 0 < S128x4096.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .i32 = 32 ∨ (Rect.block (s := S1x4096) S1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_0) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_1) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S16777216 : Shape := ⟨1, ![16777216]⟩

abbrev nBuf : Space → Nat
  | .hbm => 90
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S4096x4096, .i1⟩
  | .hbm, ⟨11, _⟩ => ⟨S4096x4096, .i1⟩
  | .hbm, ⟨12, _⟩ => ⟨S4096x4096, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .f32⟩
  | .hbm, ⟨19, _⟩ => ⟨S4096x4096, .i32⟩
  | .hbm, ⟨20, _⟩ => ⟨S_, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x1, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S16777216, .f32⟩
  | .hbm, ⟨89, _⟩ => ⟨S16777216, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_call2_v0 : Ref sig .tc := ⟨.hbm, 80, rfl⟩
abbrev main_call2_v1 : Ref sig .tc := ⟨.hbm, 81, rfl⟩
abbrev main_v56 : Ref sig .tc := ⟨.hbm, 82, rfl⟩
abbrev main_cst_16 : Ref sig .tc := ⟨.hbm, 83, rfl⟩
abbrev main_call3_v0 : Ref sig .tc := ⟨.hbm, 84, rfl⟩
abbrev main_call3_v1 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  natLt_1_32 : 1 < 32
  reducesTo_S4096x4096_S4096_d1 : S4096x4096.ReducesTo [1] S4096
  h_S_ : 0 < S_.numel
  bcast_S_S4096 : S_.BroadcastsInDim S4096 (![] : Fin 0 → Fin S4096.rank)
  shapeCasts_S4096x4096_S16777216 : S4096x4096.ShapeCasts S16777216

variable [Facts₀]

class Facts : Prop extends Facts₀ where

variable [Facts]
-- ==== Proof.PairMath.lean ====
/-
  One entry of the pair loss and of the gradient of its row mean, on the extended reals.

  For a similarity x, a "same class" bit s and an "x < 1" bit l the loss entry is
      log (1 + exp (-2 (x - 1/2)))   where s and l hold,
      0                              where s holds and l does not,
      log (1 + exp (40 (x - 1/2)))   where s fails,
  and the gradient entry is the derivative of the row's mean loss: the logistic weight of the exponent times
  -2 / max(#positives, 1), respectively 40 / max(#negatives, 1).

  Two spellings of each are written here as scalar functions. The first nests the two choices, takes the
  logistic weight as 1 - 1/(1 + e^u), the counts as float sums of 0/1 indicators, the negatives as 4096 minus the
  number of same-class columns, and multiplies by the quotient c / n. The second adds two masked terms, takes the
  weight as 1/(1 + e^(-u)), the counts as 32-bit integers converted to floats, and divides the product c · weight by
  n. They agree entry by entry for a finite x and counts of at most 4096 columns: the masked sum has one live term,
  1 - 1/(1 + e^u) = 1/(1 + e^(-u)) over the reals, and w · (c / n) = (c · w) / n for a real n ≥ 1.
-/
import Idealize.ShloMosaic.PureOps.Ideal
import Idealize.ShloMosaic.Lib.IndicatorCount
import Idealize.ShloMosaic.Lib.ValueIdx

noncomputable section

namespace Cert.PairMath

open Idealize.ShloMosaic Idealize.ShloMosaic.ValueIdx

/-! ## The float words of the two programs -/

abbrev zero : EReal := Ideal.ofBits .f32 0x00000000#32
abbrev one : EReal := Ideal.ofBits .f32 0x3F800000#32
abbrev half : EReal := Ideal.ofBits .f32 0x3F000000#32
abbrev negTwo : EReal := Ideal.ofBits .f32 0xC0000000#32
abbrev forty : EReal := Ideal.ofBits .f32 0x42200000#32
abbrev cols : EReal := Ideal.ofBits .f32 0x45800000#32

theorem zero_eq : zero = ((0 : ℝ) : EReal) := by
  simp [zero, Ideal.ofBits, Ideal.ieee]
theorem one_eq : one = ((1 : ℝ) : EReal) := by
  simp [one, Ideal.ofBits, Ideal.ieee, -EReal.coe_mul]; norm_num
theorem half_eq : half = ((1 / 2 : ℝ) : EReal) := by
  simp [half, Ideal.ofBits, Ideal.ieee, -EReal.coe_mul]; norm_num
theorem negTwo_eq : negTwo = ((-2 : ℝ) : EReal) := by
  simp [negTwo, Ideal.ofBits, Ideal.ieee, -EReal.coe_mul]; norm_num
theorem forty_eq : forty = ((40 : ℝ) : EReal) := by
  simp [forty, Ideal.ofBits, Ideal.ieee, -EReal.coe_mul]; norm_num
theorem cols_eq : cols = ((4096 : ℝ) : EReal) := by
  simp [cols, Ideal.ofBits, Ideal.ieee, -EReal.coe_mul]; norm_num

/-! ## One entry, in the two spellings -/

/-- The loss entry with the choices nested. -/
def lossNested (s l : BitVec 1) (x : EReal) : EReal :=
  Scalar.select s (Scalar.select l (Ideal.log (one + Ideal.exp (negTwo * (x - half)))) zero)
    (Ideal.log (one + Ideal.exp (forty * (x - half))))

/-- The loss entry as a sum of two masked terms. -/
def lossMasked (s l : BitVec 1) (x : EReal) : EReal :=
  Scalar.select (IntOp.andi s l) (Ideal.log1p (Ideal.exp (negTwo * (x - half)))) zero
    + Scalar.select (~~~s) (Ideal.log1p (Ideal.exp (forty * (x - half)))) zero

/-- The gradient entry with the choices nested, the counts float sums. -/
def gradNested (s l : BitVec 1) (x sumPos sumSame : EReal) : EReal :=
  Scalar.select s
    (Scalar.select l ((one - Ideal.div one (one + Ideal.exp (negTwo * (x - half)))) * Ideal.div negTwo (max sumPos one)) zero)
    ((one - Ideal.div one (one + Ideal.exp (forty * (x - half)))) * Ideal.div forty (max (cols - sumSame) one))

/-- The gradient entry as a sum of two masked terms, the counts 32-bit integers. -/
def gradMasked (s l : BitVec 1) (x : EReal) (cntPos cntNeg : BitVec 32) : EReal :=
  Scalar.select (IntOp.andi s l)
      (Ideal.div (negTwo * Ideal.div one (one + Ideal.exp (-(negTwo * (x - half)))))
        (((IntOp.maxsi cntPos 1#32).toInt : ℝ) : EReal)) zero
    + Scalar.select (~~~s)
      (Ideal.div (forty * Ideal.div one (one + Ideal.exp (-(forty * (x - half)))))
        (((IntOp.maxsi cntNeg 1#32).toInt : ℝ) : EReal)) zero

/-! ## The two choices -/

theorem andi_one_one : IntOp.andi (1#1) (1#1) = 1#1 := by decide
theorem andi_one_zero : IntOp.andi (1#1) (0#1) = 0#1 := by decide
theorem andi_zero (l : BitVec 1) : IntOp.andi (0#1) l = 0#1 := by revert l; decide
theorem not_one : ~~~(1#1 : BitVec 1) = 0#1 := by decide
theorem not_zero : ~~~(0#1 : BitVec 1) = 1#1 := by decide

/-- The nested choice and the masked sum are one value, whatever the two branch values are. -/
theorem nested_eq_masked (s l : BitVec 1) (P N : EReal) :
    Scalar.select s (Scalar.select l P zero) N
      = Scalar.select (IntOp.andi s l) P zero + Scalar.select (~~~s) N zero := by
  by_cases hs : s = 1#1
  · subst hs
    by_cases hl : l = 1#1
    · subst hl
      simp only [andi_one_one, not_one, select_one, select_zero, zero_eq, EReal.coe_zero, add_zero]
    · simp only [eq_zero_of_ne_one hl, andi_one_zero, not_one, select_one, select_zero, zero_eq, EReal.coe_zero, add_zero]
  · simp only [eq_zero_of_ne_one hs, andi_zero, not_zero, select_one, select_zero, zero_eq, EReal.coe_zero, zero_add]

theorem one_eq_one : one = (1 : EReal) := by rw [one_eq, EReal.coe_one]

theorem loss_eq (s l : BitVec 1) (x : EReal) : lossNested s l x = lossMasked s l x := by
  unfold lossNested lossMasked Ideal.log1p
  rw [one_eq_one]
  exact nested_eq_masked s l _ _

/-! ## A count as a float, both ways -/

/-- A count of at most 4096, as a 32-bit word, against 1 by the signed maximum, read as an integer. -/
theorem maxsi_toInt (k : ℕ) (hk : k ≤ 4096) :
    (IntOp.maxsi (BitVec.ofNat 32 k) 1#32).toInt = max (k : ℤ) 1 := by
  have hk' : (BitVec.ofNat 32 k).toInt = (k : ℤ) := by
    rw [BitVec.toInt_eq_toNat_cond, BitVec.toNat_ofNat]
    have : (2 : ℕ) ^ 32 = 4294967296 := by norm_num
    rw [this]
    split <;> omega
  have h1 : (1#32 : BitVec 32).toInt = 1 := by decide
  unfold IntOp.maxsi BitVec.slt
  rw [hk', h1]
  by_cases h : (1 : ℤ) < (k : ℤ)
  · rw [if_pos (by simpa using h), hk']; omega
  · rw [if_neg (by simpa using h), h1]; omega

/-- The same as a real. -/
theorem maxsi_real (k : ℕ) (hk : k ≤ 4096) :
    ((IntOp.maxsi (BitVec.ofNat 32 k) 1#32).toInt : ℝ) = max (k : ℝ) 1 := by
  rw [maxsi_toInt k hk]; push_cast; rfl

/-! ## The real identity -/

theorem div_real (a b : ℝ) (hb : b ≠ 0) : Ideal.div (a : EReal) (b : EReal) = ((a / b : ℝ) : EReal) := by
  rw [Ideal.div_coe hb, ← EReal.coe_mul]; congr 1; field_simp

/-- The logistic weight times the quotient c / n, against the product c · weight divided by n: for real exponent,
    constant and n ≠ 0. -/
theorem weight_eq (c u n : ℝ) (hn : n ≠ 0) :
    (((1 : ℝ) : EReal) - Ideal.div ((1 : ℝ) : EReal) (((1 : ℝ) : EReal) + Ideal.exp (u : EReal))) * Ideal.div (c : EReal) (n : EReal)
      = Ideal.div ((c : EReal) * Ideal.div ((1 : ℝ) : EReal) (((1 : ℝ) : EReal) + Ideal.exp (-(u : EReal)))) (n : EReal) := by
  have hp : (1 : ℝ) + Real.exp u ≠ 0 := by positivity
  have hq : (1 : ℝ) + Real.exp (-u) ≠ 0 := by positivity
  rw [← EReal.coe_neg, Ideal.exp_coe, Ideal.exp_coe, ← EReal.coe_add, ← EReal.coe_add, div_real _ _ hp, div_real _ _ hq,
    div_real _ _ hn, ← EReal.coe_sub, ← EReal.coe_mul, ← EReal.coe_mul, div_real _ _ hn]
  congr 1
  rw [Real.exp_neg]
  have he : Real.exp u ≠ 0 := (Real.exp_pos u).ne'
  field_simp
  ring

/-! ## Indicator sums -/

/-- A float sum of 0/1 indicators is the number of ones. -/
theorem sum_indicator {ι : Type} [DecidableEq ι] (S : Finset ι) (p : ι → BitVec 1) :
    ∑ k ∈ S, Scalar.select (p k) one zero = (((S.filter fun k => p k = 1#1).card : ℝ) : EReal) := by
  induction S using Finset.induction_on with
  | empty => simp
  | insert a S ha ih =>
    rw [Finset.sum_insert ha, ih, Finset.filter_insert]
    by_cases h : p a = 1#1
    · rw [if_pos h, Finset.card_insert_of_notMem (fun hm => ha (Finset.mem_filter.1 hm).1), h, select_one, one_eq,
        ← EReal.coe_add]
      congr 1; push_cast; ring
    · rw [if_neg h, eq_zero_of_ne_one h, select_zero, zero_eq, ← EReal.coe_add, zero_add]

theorem not_eq_one_iff (b : BitVec 1) : ~~~b = 1#1 ↔ ¬ b = 1#1 := by revert b; decide

/-- The columns whose negated bit is set are the columns whose bit is not. -/
theorem card_not {n : ℕ} (s : Fin n → BitVec 1) :
    (Finset.univ.filter fun k => ~~~(s k) = 1#1).card = n - (Finset.univ.filter fun k => s k = 1#1).card := by
  have h : (Finset.univ.filter fun k => ~~~(s k) = 1#1) = (Finset.univ.filter fun k => s k = 1#1)ᶜ := by
    ext k; simp [not_eq_one_iff]
  rw [h, Finset.card_compl, Fintype.card_fin]

theorem card_le {n : ℕ} (p : Fin n → BitVec 1) : (Finset.univ.filter fun k => p k = 1#1).card ≤ n := by
  have := Finset.card_filter_le (Finset.univ : Finset (Fin n)) (fun k => p k = 1#1)
  rwa [Finset.card_univ, Fintype.card_fin] at this

/-! ## The gradient entry, both ways -/

/-- The embedding of the reals keeps a maximum. -/
theorem coe_max (a b : ℝ) : ((max a b : ℝ) : EReal) = max (a : EReal) (b : EReal) :=
  EReal.coe_strictMono.monotone.map_max

/-- For a finite similarity, a positives count a and a same-class count b of at most 4096 columns, the nested
    spelling over the float counts is the masked spelling over the integer counts a and 4096 - b. -/
theorem grad_eq (s l : BitVec 1) (r : ℝ) (a b : ℕ) (ha : a ≤ 4096) (hb : b ≤ 4096) :
    gradNested s l (r : EReal) ((a : ℝ) : EReal) ((b : ℝ) : EReal)
      = gradMasked s l (r : EReal) (BitVec.ofNat 32 a) (BitVec.ofNat 32 (4096 - b)) := by
  unfold gradNested gradMasked
  rw [nested_eq_masked, maxsi_real a ha, maxsi_real (4096 - b) (by omega), one_eq, half_eq, negTwo_eq, forty_eq, cols_eq]
  have e1 : ((-2 : ℝ) : EReal) * ((r : EReal) - ((1 / 2 : ℝ) : EReal)) = (((-2) * (r - 1 / 2) : ℝ) : EReal) := by
    rw [← EReal.coe_sub, ← EReal.coe_mul]
  have e2 : ((40 : ℝ) : EReal) * ((r : EReal) - ((1 / 2 : ℝ) : EReal)) = ((40 * (r - 1 / 2) : ℝ) : EReal) := by
    rw [← EReal.coe_sub, ← EReal.coe_mul]
  have m1 : max ((a : ℝ) : EReal) ((1 : ℝ) : EReal) = ((max (a : ℝ) 1 : ℝ) : EReal) := (coe_max _ _).symm
  have m2 : max (((4096 : ℝ) : EReal) - ((b : ℝ) : EReal)) ((1 : ℝ) : EReal) = ((max (((4096 - b : ℕ)) : ℝ) 1 : ℝ) : EReal) := by
    rw [← EReal.coe_sub, ← coe_max, Nat.cast_sub hb]; norm_num
  have n1 : max (a : ℝ) 1 ≠ 0 := (lt_of_lt_of_le one_pos (le_max_right _ _)).ne'
  have n2 : max (((4096 - b : ℕ)) : ℝ) 1 ≠ 0 := (lt_of_lt_of_le one_pos (le_max_right _ _)).ne'
  rw [e1, e2, m1, m2, weight_eq _ _ _ n1, weight_eq _ _ _ n2]

end Cert.PairMath

end
-- ==== Proof.LibColumnAcross.lean ====
/-
  A one-column matrix broadcast across the columns, read at an entry.

  A column [a, 1] broadcast by the vector unit to [a, b] reads, at (p, c), the column at (p, 0).
-/
import Idealize.ShloMosaic.Lib.Pipeline.Value
import Idealize.ShloMosaic.Lib.ValueIdx

namespace Cert.Lib.ColumnAcross

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnAcross
-- ==== Proof.LibColumnCast.lean ====
/-
  A vector made a one-column matrix, read at an entry.

  An array of shape [a] cast to [a, 1] reads, at (p, u), the array at p, whatever the unit coordinate u.
-/
import Idealize.ShloMosaic.Lib.Pipeline.Value
import Idealize.ShloMosaic.Lib.ValueIdx

namespace Cert.Lib.ColumnCast

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.ColumnCast
-- ==== Proof.KernelEntry.lean ====
/-
  What the kernel stores, read at one entry of a block.

  Over the three blocks a grid point loads — 128 rows of similarities x, those rows' classes as a column, all 4096
  columns' classes as a row — the class bit at (r, q) compares the column's entry r with the row's entry q; the
  loss block at (r, q) is the nested choice of the two deviances; the two row counts at r are the sums over the 4096
  columns of the 0/1 indicators of "same class" and of "same class and x < 1"; and the gradient block at (r, q) is the
  nested choice over those two sums.
-/
import proofs.«163431_g73469710566012_cont_9to1_m_1373_5_alg».proof.Proof.Gen.KernelIdeal.Skeleton
import proofs.«163431_g73469710566012_cont_9to1_m_1373_5_alg».proof.Proof.PairMath
import proofs.«163431_g73469710566012_cont_9to1_m_1373_5_alg».proof.Proof.LibColumnAcross
import proofs.«163431_g73469710566012_cont_9to1_m_1373_5_alg».proof.Proof.LibColumnCast
import Idealize.ShloMosaic.Lib.ValueLayout
import Idealize.ShloMosaic.Lib.Pipeline.Value
import Idealize.ShloMosaic.PureOps.Ideal.Laws

noncomputable section

namespace Cert.PairKernel

open Idealize.ShloMosaic Idealize.ShloMosaic.ValueIdx Cert.KernelIdeal Cert.KernelIdeal.Gen Cert.PairMath
open Cert.Lib.ColumnAcross Cert.Lib.ColumnCast

variable (x0 : Vec Ideal S128x4096 .f32) (x1 : Vec Ideal S128x1 .i32) (x2 : Vec Ideal S1x4096 .i32)

/-- The class bit at (r, q): row r's class against column q's. -/
theorem same_at (r : Fin 128) (q : Fin 4096) :
    k0_pay3 (F := Ideal) x1 x2 (ix2 r q) = IntOp.cmpi .eq (x1 (ix2 r (0 : Fin 1))) (x2 (ix2 (0 : Fin 1) q)) := by
  unfold k0_pay3
  try dsimp only
  rw [shapeCast_self, shapeCast_self]
  show IntOp.cmpi .eq (broadcastTo S128x4096 x1 broadcasts_S128x1_S128x4096 (ix2 r q))
      (broadcastTo S128x4096 x2 broadcasts_S1x4096_S128x4096 (ix2 r q)) = _
  rw [broadcastTo_a1_ab_apply, broadcastTo_1b_ab_apply]

/-- The "x < 1" bit at an entry. -/
theorem lt_at (i : S128x4096.Idx) :
    k0_pay4 (F := Ideal) x0 i = FloatOps.cmpf (F := Ideal) (φ := .f32) .olt (x0 i) one := rfl

/-- The loss block at an entry: the nested choice. -/
theorem loss_at (i : S128x4096.Idx) :
    k0_pay1 (F := Ideal) (k0_pay3 (F := Ideal) x1 x2) (k0_pay4 (F := Ideal) x0) (k0_pay8 (F := Ideal) x0) (k0_pay9 (F := Ideal) x0) i
      = lossNested (k0_pay3 (F := Ideal) x1 x2 i) (k0_pay4 (F := Ideal) x0 i) (x0 i) := rfl

/-- Row r with column k inserted. -/
theorem lift_row (r : Fin 128) (k : Fin 4096) :
    (reduces_S128x4096_S128 : S128x4096.Reduces [1] S128).lift (ix1 r) k = ix2 r k :=
  funext fun a => Fin.ext (by match a with | ⟨0, _⟩ => rfl | ⟨1, _⟩ => rfl)

/-- A lane sum of a block, kept as a column, at row r: the sum over the 4096 columns. -/
theorem rowsum_at (v : FVec Ideal S128x4096 .f32) (hacc : (0x00000000#32 : BitVec 32) = 0x00000000#32) (r : Fin 128) (u : Fin 1) :
    shapeCast S128x1 (multiReduction .add [1] S128 v 0x00000000#32 reduces_S128x4096_S128 (.inl rfl) hacc) shapeCasts_S128_S128x1 (ix2 r u)
      = ∑ k : Fin 4096, v (ix2 r k) := by
  rw [shapeCast_a_a1_apply]
  refine (Ideal.multiReduction_add_single v 0x00000000#32 reduces_S128x4096_S128 (.inl rfl) hacc (ix1 r)).trans ?_
  exact Finset.sum_congr rfl fun k _ => congrArg v (lift_row r k)

/-- The number of same-class columns of row r, as the float sum the kernel takes. -/
theorem sumSame_at (r : Fin 128) (u : Fin 1) :
    k0_pay12 (F := Ideal) x1 x2 (ix2 r u) = ∑ k : Fin 4096, Scalar.select (k0_pay3 (F := Ideal) x1 x2 (ix2 r k)) one zero := by
  unfold k0_pay12
  try dsimp only
  exact rowsum_at _ rfl r u

/-- The number of positive columns of row r (same class and x < 1), as the float sum the kernel takes. -/
theorem sumPos_at (r : Fin 128) (u : Fin 1) :
    k0_pay13 (F := Ideal) x0 x1 x2 (ix2 r u)
      = ∑ k : Fin 4096, Scalar.select (IntOp.andi (k0_pay3 (F := Ideal) x1 x2 (ix2 r k)) (k0_pay4 (F := Ideal) x0 (ix2 r k))) one zero := by
  unfold k0_pay13
  try dsimp only
  exact rowsum_at _ rfl r u

/-- The gradient block at (r, q): the nested choice over row r's two sums. -/
theorem grad_at (r : Fin 128) (q : Fin 4096) :
    k0_pay2 (F := Ideal) (k0_pay3 (F := Ideal) x1 x2) (k0_pay4 (F := Ideal) x0) (k0_pay10 (F := Ideal) x0) (k0_pay11 (F := Ideal) x0) (k0_pay12 (F := Ideal) x1 x2) (k0_pay13 (F := Ideal) x0 x1 x2) (ix2 r q)
      = gradNested (k0_pay3 (F := Ideal) x1 x2 (ix2 r q)) (k0_pay4 (F := Ideal) x0 (ix2 r q)) (x0 (ix2 r q))
          (k0_pay13 (F := Ideal) x0 x1 x2 (ix2 r (0 : Fin 1))) (k0_pay12 (F := Ideal) x1 x2 (ix2 r (0 : Fin 1))) := by
  unfold k0_pay2
  try dsimp only
  simp only [select_apply, mulf_apply]
  rw [broadcastTo_a1_ab_apply, broadcastTo_a1_ab_apply]
  rfl

end Cert.PairKernel

end
-- ==== Proof.PairSpec.lean ====
/-
  The pair loss and the gradient of its row means, as whole arrays.

  For a similarity matrix x (4096 × 4096) and a class vector t (4096): the class bit of (p, q) says t p = t q, the
  other bit says x(p, q) < 1; row p's number of positives is the number of columns where both bits hold and its number
  of same-class columns the number where the first does. The loss array at (p, q) is the nested choice of the two
  deviances of x(p, q), and the gradient array the nested choice over row p's two counts taken as float sums of 0/1
  indicators. Each is also the masked sum (over integer counts for the gradient): for the loss always, for the
  gradient when every similarity is finite.
-/
import proofs.«163431_g73469710566012_cont_9to1_m_1373_5_alg».proof.Proof.PairMath

noncomputable section

namespace Cert.PairSpec

open Idealize.ShloMosaic Idealize.ShloMosaic.ValueIdx Cert.PairMath

abbrev Mat : Shape := ⟨2, ![4096, 4096]⟩
abbrev Cls : Shape := ⟨1, ![4096]⟩

variable (x : Mat.Idx → EReal) (t : Cls.Idx → BitVec 32)

/-- Rows p and q are of one class. -/
def sameBit (p q : Fin 4096) : BitVec 1 := IntOp.cmpi .eq (t (ix1 p)) (t (ix1 q))
/-- The similarity of (p, q) is below 1. -/
def ltBit (p q : Fin 4096) : BitVec 1 := FloatOps.cmpf (F := Ideal) (φ := .f32) .olt (x (ix2 p q)) one

/-- Row p's same-class columns, counted as a float sum. -/
def sumSame (p : Fin 4096) : EReal := ∑ k : Fin 4096, Scalar.select (sameBit t p k) one zero
/-- Row p's positive columns, counted as a float sum. -/
def sumPos (p : Fin 4096) : EReal := ∑ k : Fin 4096, Scalar.select (IntOp.andi (sameBit t p k) (ltBit x p k)) one zero

def lossEntry (p q : Fin 4096) : EReal := lossNested (sameBit t p q) (ltBit x p q) (x (ix2 p q))
def gradEntry (p q : Fin 4096) : EReal :=
  gradNested (sameBit t p q) (ltBit x p q) (x (ix2 p q)) (sumPos x t p) (sumSame t p)

def row (i : Mat.Idx) : Fin 4096 := ⟨(i 0).val, idx2_lt0 i⟩
def col (i : Mat.Idx) : Fin 4096 := ⟨(i 1).val, idx2_lt1 i⟩

/-- The loss array. -/
def lossArr : Mat.Idx → EReal := fun i => lossEntry x t (row i) (col i)
/-- The gradient array. -/
def gradArr : Mat.Idx → EReal := fun i => gradEntry x t (row i) (col i)

theorem lossArr_ix2 (p q : Fin 4096) : lossArr x t (ix2 p q) = lossEntry x t p q := rfl
theorem gradArr_ix2 (p q : Fin 4096) : gradArr x t (ix2 p q) = gradEntry x t p q := rfl

/-- The loss entry as the masked sum. -/
theorem lossEntry_masked (p q : Fin 4096) :
    lossEntry x t p q = lossMasked (sameBit t p q) (ltBit x p q) (x (ix2 p q)) := loss_eq _ _ _

/-- For a finite matrix, the gradient entry as the masked sum over row p's integer counts: of its positive columns
    and of its different-class columns. -/
theorem gradEntry_masked (hx : ∀ i, ∃ r : ℝ, x i = (r : EReal)) (p q : Fin 4096) :
    gradEntry x t p q = gradMasked (sameBit t p q) (ltBit x p q) (x (ix2 p q))
      (BitVec.ofNat 32 (Finset.univ.filter fun k : Fin 4096 => IntOp.andi (sameBit t p k) (ltBit x p k) = 1#1).card)
      (BitVec.ofNat 32 (Finset.univ.filter fun k : Fin 4096 => ~~~(sameBit t p k) = 1#1).card) := by
  obtain ⟨r, hr⟩ := hx (ix2 p q)
  unfold gradEntry sumPos sumSame
  rw [sum_indicator, sum_indicator, hr, grad_eq _ _ r _ _ (card_le _) (card_le _), card_not]

end Cert.PairSpec

end
-- ==== Proof.KernelArray.lean ====
/-
  The kernel's two output arrays, before they are flattened, are the loss array and the gradient array.

  The grid has 32 points; point t loads rows 128 t … 128 t + 127 of the similarity matrix, the same rows of the class
  vector laid as a column, and the whole class vector laid as a row, and writes back rows 128 t … 128 t + 127 of each
  output. Entry (r, q) of what point t writes is the loss, respectively the gradient, entry of row 128 t + r and
  column q — the row's two counts run over all 4096 columns, which the point has in its block — and the 32 row blocks
  tile the 4096 rows.
-/
import proofs.«163431_g73469710566012_cont_9to1_m_1373_5_alg».proof.Proof.Gen.KernelIdeal.Frame
import proofs.«163431_g73469710566012_cont_9to1_m_1373_5_alg».proof.Proof.KernelEntry
import proofs.«163431_g73469710566012_cont_9to1_m_1373_5_alg».proof.Proof.PairSpec
import Idealize.ShloMosaic.Lib.Pipeline.Value
import Idealize.ShloMosaic.Lib.StableHlo.Run
import Idealize.ShloMosaic.Lib.ValueLayout

noncomputable section

namespace Cert.PairKernel

open Idealize.ShloMosaic Idealize.ShloMosaic.TcCoe Idealize.SL.Sem Idealize.ShloMosaic.ValueIdx
open Idealize.ShloMosaic.Pipeline (Dat)
open Cert.KernelIdeal Cert.KernelIdeal.Gen Cert.PairMath Cert.PairSpec Cert.Lib.ColumnCast

variable (m : (ℓ : Loc nD τ sig) → Buf (Elt Ideal) ℓ) (ρ : Dev nD → PrngReg)

theorem hz : (![0, 0] : Fin 2 → Nat) = fun _ => 0 := funext fun a => by fin_cases a <;> rfl

/-- The windows' index maps over the grid: the three row-blocked windows are at block row t, the class row at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r of point t's blocks is row 128 t + r of the arrays. -/
def rowOf (t : Fin cfg0.N) (r : Fin 128) : Fin 4096 :=
  ⟨128 * t.val + r.val, by have hN : cfg0.N = 32 := N_0; have := t.isLt; have := r.isLt; omega⟩

/-! ## The arrays the region finds -/

/-- The class vector laid as a column, as the region finds it. -/
theorem V_col (c : Dev nD) :
    (V m c main_call0_v0 : S4096x1.Idx → BitVec 32)
      = shapeCast S4096x1 (m ((c : Thread nD τ).loc main_arg1) : S4096.Idx → BitVec 32) shapeCasts_S4096_S4096x1 := by
  show StableHlo.after hostOps0 (fun b => m (c, b)) (Proc.devRef .tc main_call0_v0) = _
  after_results
  rfl

/-- The class vector laid as a row, as the region finds it. -/
theorem V_row (c : Dev nD) :
    (V m c main_call0_v1 : S1x4096.Idx → BitVec 32)
      = shapeCast S1x4096 (m ((c : Thread nD τ).loc main_arg1) : S4096.Idx → BitVec 32) shapeCasts_S4096_S1x4096 := by
  show StableHlo.after hostOps0 (fun b => m (c, b)) (Proc.devRef .tc main_call0_v1) = _
  after_results
  rfl

/-! ## The blocks a point loads -/

/-- The similarity block of point t at (r, q): the matrix at (128 t + r, q). -/
theorem x_block (c : Dev nD) (t : Fin cfg0.N) (r : Fin 128) (q : Fin 4096) :
    (iblk m c 0 t : S128x4096.Idx → EReal) (ix2 r q)
      = (m ((c : Thread nD τ).loc main_arg0) : S4096x4096.Idx → EReal) (ix2 (rowOf t r) q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 128 + 1 * r.val = 128 * t.val + r.val; rw [e0]; omega
  | ⟨1, _⟩ => show win0_0.index t (1 : Fin 2) * 4096 + 1 * q.val = q.val; rw [e1]; omega

/-- The class column of point t at (r, 0): the class of row 128 t + r. -/
theorem col_block (c : Dev nD) (t : Fin cfg0.N) (r : Fin 128) :
    (iblk m c 1 t : S128x1.Idx → BitVec 32) (ix2 r (0 : Fin 1))
      = (m ((c : Thread nD τ).loc main_arg1) : S4096.Idx → BitVec 32) (ix1 (rowOf t r)) := by
  obtain ⟨-, -, e0, e1, -⟩ := idx_facts t
  unfold iblk
  rw [View.read_apply]
  show V m c main_call0_v0 _ = _
  have e : (((cfg0.win 1).blk t).view.emb (ix2 r (0 : Fin 1)) : S4096x1.Idx) = ix2 (rowOf t r) (0 : Fin 1) :=
    funext fun a => Fin.ext (by
      match a with
      | ⟨0, _⟩ => show win0_1.index t (0 : Fin 2) * 128 + 1 * r.val = 128 * t.val + r.val; rw [e0]; omega
      | ⟨1, _⟩ => show win0_1.index t (1 : Fin 2) * 1 + 1 * 0 = 0; rw [e1])
  rw [e, V_col, shapeCast_a_a1_apply]

/-- The class row of point t at (0, q): the class of column q. -/
theorem row_block (c : Dev nD) (t : Fin cfg0.N) (q : Fin 4096) :
    (iblk m c 2 t : S1x4096.Idx → BitVec 32) (ix2 (0 : Fin 1) q)
      = (m ((c : Thread nD τ).loc main_arg1) : S4096.Idx → BitVec 32) (ix1 q) := by
  obtain ⟨-, -, -, -, e0, e1, -⟩ := idx_facts t
  unfold iblk
  rw [View.read_apply]
  show V m c main_call0_v1 _ = _
  have e : (((cfg0.win 2).blk t).view.emb (ix2 (0 : Fin 1) q) : S1x4096.Idx) = ix2 (0 : Fin 1) q :=
    funext fun a => Fin.ext (by
      match a with
      | ⟨0, _⟩ => show win0_2.index t (0 : Fin 2) * 1 + 1 * 0 = 0; rw [e0]
      | ⟨1, _⟩ => show win0_2.index t (1 : Fin 2) * 4096 + 1 * q.val = q.val; rw [e1]; omega)
  rw [e, V_row, shapeCast_a_1a_apply]

/-! ## What a point writes back -/

/-- Entry (r, q) of what point t leaves in the loss window: the loss entry of row 128 t + r, column q. -/
theorem loss_block (c : Dev nD) (t : Fin cfg0.N) (r : Fin 128) (q : Fin 4096) :
    out0_3 (F := Ideal) (iblk m c 0 t) (iblk m c 1 t) (iblk m c 2 t) (ix2 r q)
      = lossEntry (m ((c : Thread nD τ).loc main_arg0)) (m ((c : Thread nD τ).loc main_arg1)) (rowOf t r) q := by
  unfold out0_3
  rw [View.canon_unit_zero hz]
  simp only [View.ld_unit_zero (S := S128x4096) hz, View.ld_unit_zero (S := S128x1) hz, View.ld_unit_zero (S := S1x4096) hz]
  refine (loss_at (iblk m c 0 t) (iblk m c 1 t) (iblk m c 2 t) (ix2 r q)).trans ?_
  rw [same_at (iblk m c 1 t) (iblk m c 2 t) r q, lt_at (iblk m c 0 t) (ix2 r q), x_block m c t r q, col_block m c t r,
    row_block m c t q]
  rfl

/-- Row r's two float sums in point t's block are row 128 t + r's. -/
theorem sums_block (c : Dev nD) (t : Fin cfg0.N) (r : Fin 128) :
    k0_pay13 (F := Ideal) (iblk m c 0 t) (iblk m c 1 t) (iblk m c 2 t) (ix2 r (0 : Fin 1))
        = sumPos (m ((c : Thread nD τ).loc main_arg0)) (m ((c : Thread nD τ).loc main_arg1)) (rowOf t r)
      ∧ k0_pay12 (F := Ideal) (iblk m c 1 t) (iblk m c 2 t) (ix2 r (0 : Fin 1))
        = sumSame (m ((c : Thread nD τ).loc main_arg1)) (rowOf t r) := by
  constructor
  · refine (sumPos_at (iblk m c 0 t) (iblk m c 1 t) (iblk m c 2 t) r 0).trans ?_
    refine Finset.sum_congr rfl fun k _ => ?_
    rw [same_at (iblk m c 1 t) (iblk m c 2 t) r k, lt_at (iblk m c 0 t) (ix2 r k), x_block m c t r k, col_block m c t r,
      row_block m c t k]
    rfl
  · refine (sumSame_at (iblk m c 1 t) (iblk m c 2 t) r 0).trans ?_
    refine Finset.sum_congr rfl fun k _ => ?_
    rw [same_at (iblk m c 1 t) (iblk m c 2 t) r k, col_block m c t r, row_block m c t k]
    rfl

/-- Entry (r, q) of what point t leaves in the gradient window: the gradient entry of row 128 t + r, column q. -/
theorem grad_block (c : Dev nD) (t : Fin cfg0.N) (r : Fin 128) (q : Fin 4096) :
    out0_4 (F := Ideal) (iblk m c 0 t) (iblk m c 1 t) (iblk m c 2 t) (ix2 r q)
      = gradEntry (m ((c : Thread nD τ).loc main_arg0)) (m ((c : Thread nD τ).loc main_arg1)) (rowOf t r) q := by
  unfold out0_4
  rw [View.canon_unit_zero hz]
  simp only [View.ld_unit_zero (S := S128x4096) hz, View.ld_unit_zero (S := S128x1) hz, View.ld_unit_zero (S := S1x4096) hz]
  refine (grad_at (iblk m c 0 t) (iblk m c 1 t) (iblk m c 2 t) r q).trans ?_
  rw [(sums_block m c t r).1, (sums_block m c t r).2, same_at (iblk m c 1 t) (iblk m c 2 t) r q,
    lt_at (iblk m c 0 t) (ix2 r q), x_block m c t r q, col_block m c t r, row_block m c t q]
  rfl

/-- Where point t's output block sits: local (r, q) is (128 t + r, q). -/
theorem emb_loss (t : Fin cfg0.N) (r : Fin 128) (q : Fin 4096) :
    (((cfg0.win 3).blk t).view.emb (ix2 r q) : S4096x4096.Idx) = ix2 (rowOf t r) q := by
  obtain ⟨-, -, -, -, -, -, e0, e1, -⟩ := idx_facts t
  exact funext fun a => Fin.ext (by
    match a with
    | ⟨0, _⟩ => show win0_3.index t (0 : Fin 2) * 128 + 1 * r.val = 128 * t.val + r.val; rw [e0]; omega
    | ⟨1, _⟩ => show win0_3.index t (1 : Fin 2) * 4096 + 1 * q.val = q.val; rw [e1]; omega)

theorem emb_grad (t : Fin cfg0.N) (r : Fin 128) (q : Fin 4096) :
    (((cfg0.win 4).blk t).view.emb (ix2 r q) : S4096x4096.Idx) = ix2 (rowOf t r) q := by
  obtain ⟨-, -, -, -, -, -, -, -, e0, e1⟩ := idx_facts t
  exact funext fun a => Fin.ext (by
    match a with
    | ⟨0, _⟩ => show win0_4.index t (0 : Fin 2) * 128 + 1 * r.val = 128 * t.val + r.val; rw [e0]; omega
    | ⟨1, _⟩ => show win0_4.index t (1 : Fin 2) * 4096 + 1 * q.val = q.val; rw [e1]; omega)

/-- What point t writes back to the loss array is its block of the loss array. -/
theorem flushed_loss (c : Dev nD) (t : Fin cfg0.N) :
    (dats m 0 c).flushed 3 t = ((cfg0.win 3).blk t).view.read (Elt Ideal)
      (lossArr (m ((c : Thread nD τ).loc main_arg0)) (m ((c : Thread nD τ).loc main_arg1))) := by
  show (cfg0.win 3).cut (grid0.coords t) ((dats m 0 c).after 3 t) = _
  rw [after0_3]
  funext j
  obtain ⟨r, q, rfl⟩ : ∃ (r : Fin 128) (q : Fin 4096), j = ix2 r q := ⟨j 0, j 1, eq_ix2 j⟩
  rw [View.read_apply, emb_loss t r q, lossArr_ix2]
  exact loss_block m c t r q

/-- What point t writes back to the gradient array is its block of the gradient array. -/
theorem flushed_grad (c : Dev nD) (t : Fin cfg0.N) :
    (dats m 0 c).flushed 4 t = ((cfg0.win 4).blk t).view.read (Elt Ideal)
      (gradArr (m ((c : Thread nD τ).loc main_arg0)) (m ((c : Thread nD τ).loc main_arg1))) := by
  show (cfg0.win 4).cut (grid0.coords t) ((dats m 0 c).after 4 t) = _
  rw [after0_4]
  funext j
  obtain ⟨r, q, rfl⟩ : ∃ (r : Fin 128) (q : Fin 4096), j = ix2 r q := ⟨j 0, j 1, eq_ix2 j⟩
  rw [View.read_apply, emb_grad t r q, gradArr_ix2]
  exact grad_block m c t r q

/-! ## The 32 row blocks tile the rows -/

theorem mem_blk_loss (t : Fin cfg0.N) (i : S4096x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_call0_v2_0).slice (win0_3.rect t)).set ↔ _
  rw [View.set_slice_whole, Rect.mem_set_unit]
  exact Iff.rfl

theorem mem_blk_grad (t : Fin cfg0.N) (i : S4096x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_call0_v2_1).slice (win0_4.rect t)).set ↔ _
  rw [View.set_slice_whole, Rect.mem_set_unit]
  exact Iff.rfl

/-- The point that covers row p is p / 128. -/
def pointOf (i : S4096x4096.Idx) : Fin cfg0.N :=
  ⟨(i 0).val / 128, by have hN : cfg0.N = 32 := N_0; have h0 : (i 0).val < 4096 := (i 0).isLt; omega⟩

theorem cover_loss (i : S4096x4096.Idx) :
    ∃ t : Fin cfg0.N, (cfg0.win 3).flush t = true ∧ i ∈ ((cfg0.win 3).blk t).view.set := by
  refine ⟨pointOf i, flush0_3 _, ?_⟩
  rw [mem_blk_loss]
  obtain ⟨-, -, -, -, -, -, e0, e1, -⟩ := idx_facts (pointOf i)
  have h0 : (i 0).val < 4096 := (i 0).isLt
  have h1 : (i 1).val < 4096 := (i 1).isLt
  intro a
  match a with
  | ⟨0, _⟩ =>
    show win0_3.index (pointOf i) (0 : Fin 2) * 128 ≤ (i 0).val ∧ (i 0).val < win0_3.index (pointOf i) (0 : Fin 2) * 128 + 128
    rw [e0]; show (i 0).val / 128 * 128 ≤ (i 0).val ∧ (i 0).val < (i 0).val / 128 * 128 + 128; omega
  | ⟨1, _⟩ =>
    show win0_3.index (pointOf i) (1 : Fin 2) * 4096 ≤ (i 1).val ∧ (i 1).val < win0_3.index (pointOf i) (1 : Fin 2) * 4096 + 4096
    rw [e1]; omega

theorem cover_grad (i : S4096x4096.Idx) :
    ∃ t : Fin cfg0.N, (cfg0.win 4).flush t = true ∧ i ∈ ((cfg0.win 4).blk t).view.set := by
  refine ⟨pointOf i, flush0_4 _, ?_⟩
  rw [mem_blk_grad]
  obtain ⟨-, -, -, -, -, -, -, -, e0, e1⟩ := idx_facts (pointOf i)
  have h0 : (i 0).val < 4096 := (i 0).isLt
  have h1 : (i 1).val < 4096 := (i 1).isLt
  intro a
  match a with
  | ⟨0, _⟩ =>
    show win0_4.index (pointOf i) (0 : Fin 2) * 128 ≤ (i 0).val ∧ (i 0).val < win0_4.index (pointOf i) (0 : Fin 2) * 128 + 128
    rw [e0]; show (i 0).val / 128 * 128 ≤ (i 0).val ∧ (i 0).val < (i 0).val / 128 * 128 + 128; omega
  | ⟨1, _⟩ =>
    show win0_4.index (pointOf i) (1 : Fin 2) * 4096 ≤ (i 1).val ∧ (i 1).val < win0_4.index (pointOf i) (1 : Fin 2) * 4096 + 4096
    rw [e1]; omega

/-! ## The two arrays after the region -/

theorem final_loss (c : Dev nD) :
    (dats m 0 c).arrAt 3 cfg0.N = lossArr (m ((c : Thread nD τ).loc main_arg0)) (m ((c : Thread nD τ).loc main_arg1)) :=
  (dats m 0 c).arrAt_eq_of_cover 3 _ (fun t _ => flushed_loss m c t) cover_loss

theorem final_grad (c : Dev nD) :
    (dats m 0 c).arrAt 4 cfg0.N = gradArr (m ((c : Thread nD τ).loc main_arg0)) (m ((c : Thread nD τ).loc main_arg1)) :=
  (dats m 0 c).arrAt_eq_of_cover 4 _ (fun t _ => flushed_grad m c t) cover_grad

end Cert.PairKernel

end
-- ==== Proof.KernelRun.lean ====
/-
  The kernel's run, read: each result is the flattened loss array, respectively gradient array, of the arguments.

  After the region the program reshapes each 4096 × 4096 output to one axis of 16777216 entries; the frame run states
  the reshapes' results over the region's arrays, which are the loss and the gradient arrays.
-/
import proofs.«163431_g73469710566012_cont_9to1_m_1373_5_alg».proof.Proof.KernelArray

noncomputable section

namespace Cert.PairKernel

open Idealize.ShloMosaic Idealize.ShloMosaic.TcCoe Idealize.SL.Sem Idealize.ShloMosaic.ValueIdx
open Idealize.ShloMosaic.Pipeline (Dat)
open Cert.KernelIdeal Cert.KernelIdeal.Gen Cert.PairMath Cert.PairSpec

variable (m : (ℓ : Loc nD τ sig) → Buf (Elt Ideal) ℓ) (ρ : Dev nD → PrngReg)

/-- A 4096 × 4096 array laid out on one axis, row after row. -/
def flat (y : S4096x4096.Idx → EReal) : S16777216.Idx → EReal :=
  shapeCast S16777216 y shapeCasts_S4096x4096_S16777216

/-- The first result after the host tail: the loss window's array, flattened. -/
theorem tail_loss (c : Dev nD) :
    Pipeline.afterTail₀ cfgs (dats m) 0 (V0 m) [hostOps1] c main_v0_0 = flat ((dats m 0 c).arrAt 3 cfg0.N) := by
  unfold Pipeline.afterTail₀
  show StableHlo.after hostOps1 _ (Proc.devRef .tc main_v0_0) = _
  after_results
  unfold flat
  rw [Pipeline.withArrays_arr spec0 launch0.win.arr_inj c _ _ 3]
  rfl

/-- The second result after the host tail: the gradient window's array, flattened. -/
theorem tail_grad (c : Dev nD) :
    Pipeline.afterTail₀ cfgs (dats m) 0 (V0 m) [hostOps1] c main_v0_1 = flat ((dats m 0 c).arrAt 4 cfg0.N) := by
  unfold Pipeline.afterTail₀
  show StableHlo.after hostOps1 _ (Proc.devRef .tc main_v0_1) = _
  after_results
  unfold flat
  rw [Pipeline.withArrays_arr spec0 launch0.win.arr_inj c _ _ 4]
  rfl

/-- Every weakly fair execution of the kernel's program terminates with the two results at the flattened loss and
    gradient arrays of the arguments, and the arguments unchanged. -/
theorem run : θ_run defs (onTc (τ := τ) (main (F := Ideal))) ⟨m, fun _ => 0, ρ⟩ fun r => ∀ c : Dev nD,
      r.2.mem ((c.tc : Thread nD τ).loc main_v0_0)
          = flat (lossArr (m ((c.tc : Thread nD τ).loc main_arg0)) (m ((c.tc : Thread nD τ).loc main_arg1)))
      ∧ r.2.mem ((c.tc : Thread nD τ).loc main_v0_1)
          = flat (gradArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 (by decide) (by decide))).trans
        ((tail_loss m c).trans (congrArg flat (final_loss m c))),
      ((h c).2 main_v0_1 (Pipeline.mem_restRefs_of main_v0_1 (by decide) (by decide))).trans
        ((tail_grad m c).trans (congrArg flat (final_grad m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.PairKernel

end
-- ==== Proof.RefEntry.lean ====
/-
  What the reference computes, read at one entry.

  Over the similarity matrix x and the class vector t, the class bit at (p, q) compares t p with t q; the loss
  array at an entry is the sum of the two masked deviances; the two integer row counts at p are the numbers of
  columns whose "same class and x < 1" bit, respectively whose negated class bit, is set; and the gradient array
  at (p, q) is the sum of the two masked terms over row p's integer counts.
-/
import proofs.«163431_g73469710566012_cont_9to1_m_1373_5_alg».proof.Proof.Gen.ReferenceIdeal.Read
import proofs.«163431_g73469710566012_cont_9to1_m_1373_5_alg».proof.Proof.PairMath
import Idealize.ShloMosaic.Lib.ValueIdx
import Idealize.ShloMosaic.Lib.IndicatorCount
import Idealize.ShloMosaic.PureOps.Reduce

noncomputable section

namespace Cert.PairRef

open Idealize.ShloMosaic Idealize.ShloMosaic.ValueIdx Cert.ReferenceIdeal Cert.ReferenceIdeal.Read Cert.PairMath
open Cert.ReferenceIdeal.Facts₀

variable (x0 : (⟨S4096x4096, .f32⟩ : BufTy).Contents (Elt Ideal)) (x1 : (⟨S4096, .i32⟩ : BufTy).Contents (Elt Ideal))

/-- The class bit at (p, q): row p's class against column q's. -/
theorem same_at (p q : Fin 4096) :
    val_main_v4 (F := Ideal) x1 (ix2 p q) = IntOp.cmpi .eq (x1 (ix1 p)) (x1 (ix1 q)) := by
  rw [val_main_v4_apply, val_main_v2_apply, val_main_v3_apply, val_main_v0_apply, val_main_v1_apply]
  have e0 : idx_main_v0 (idx_main_v2 (ix2 p q)) = ix1 p := funext fun a => Fin.ext (by match a with | ⟨0, _⟩ => rfl)
  have e1 : idx_main_v1 (idx_main_v3 (ix2 p q)) = ix1 q := funext fun a => Fin.ext (by match a with | ⟨0, _⟩ => rfl)
  rw [e0, e1]

/-- The "x < 1" bit at an entry. -/
theorem lt_at (i : S4096x4096.Idx) :
    val_main_v6 (F := Ideal) x0 i = FloatOps.cmpf (F := Ideal) (φ := .f32) .olt (x0 i) one := by
  rw [val_main_v6_apply, val_main_v5_apply, val_main_cst_apply]; rfl

/-- The loss array at an entry: the sum of the two masked terms. -/
theorem loss_at (i : S4096x4096.Idx) :
    val_main_v33 (F := Ideal) x0 x1 i
      = lossMasked (val_main_v4 (F := Ideal) x1 i) (val_main_v6 (F := Ideal) x0 i) (x0 i) := by
  simp only [val_main_v33_apply, val_main_v31_apply, val_main_v32_apply, val_main_v7_apply, val_main_v8_apply,
    val_main_v28_apply, val_main_v27_apply, val_main_v22_apply, val_main_v21_apply, val_main_cst_4_apply,
    val_main_v20_apply, val_main_v19_apply, val_main_cst_3_apply,
    val_main_v30_apply, val_main_v29_apply, val_main_v26_apply, val_main_v25_apply, val_main_cst_6_apply,
    val_main_v24_apply, val_main_v23_apply, val_main_cst_5_apply,
    val_main_call0_v1_apply, val_main_call0_v0_apply, val_main_cst_7_apply,
    val_main_call1_v1_apply, val_main_call1_v0_apply, val_main_cst_8_apply]
  rfl

/-- Row p with column k inserted. -/
theorem lift_row (h : S4096x4096.Reduces [1] S4096) (p k : Fin 4096) : h.lift (ix1 p) k = ix2 p k :=
  funext fun a => Fin.ext (by match a with | ⟨0, _⟩ => rfl | ⟨1, _⟩ => rfl)

/-- An integer sum along a row of one-bit words widened to 32 bits: the number of set bits, as a word. -/
theorem rowcount_at (b : (⟨S4096x4096, .i1⟩ : BufTy).Contents (Elt Ideal)) (p : Fin 4096) :
    Host.reduce IntOp.addi (extui 32 b natLt_1_32) (constantI S_ 32 0#32) reducesTo_S4096x4096_S4096_d1 h_S_ (ix1 p)
      = BitVec.ofNat 32 (Finset.univ.filter fun k : Fin 4096 => b (ix2 p k) = 1#1).card := by
  have hred : S4096x4096.Reduces [1] S4096 := by decide
  rw [Host.reduce_eq_fold_single IntOp.addi _ _ reducesTo_S4096x4096_S4096_d1 hred h_S_ (ix1 p)]
  have hf : ((extui 32 b natLt_1_32 : S4096x4096.Idx → BitVec 32) ∘ hred.lift (ix1 p))
      = fun k : Fin 4096 => (b (ix2 p k)).setWidth 32 := funext fun k => by
    show (b (hred.lift (ix1 p) k)).setWidth 32 = _
    rw [lift_row hred p k]
  rw [hf]
  exact IndicatorCount.fold_addi_setWidth_eq_card (fun k : Fin 4096 => b (ix2 p k)) Finset.univ

/-- Row p's number of positive columns (same class and x < 1), as the 32-bit sum. -/
theorem cntPos_at (p : Fin 4096) :
    val_main_v10 (F := Ideal) x0 x1 (ix1 p)
      = BitVec.ofNat 32 (Finset.univ.filter fun k : Fin 4096 =>
          IntOp.andi (val_main_v4 (F := Ideal) x1 (ix2 p k)) (val_main_v6 (F := Ideal) x0 (ix2 p k)) = 1#1).card := by
  unfold val_main_v10 val_main_v9 val_main_c
  exact rowcount_at (val_main_v7 (F := Ideal) x0 x1) p

/-- Row p's number of different-class columns, as the 32-bit sum. -/
theorem cntNeg_at (p : Fin 4096) :
    val_main_v15 (F := Ideal) x1 (ix1 p)
      = BitVec.ofNat 32 (Finset.univ.filter fun k : Fin 4096 => ~~~(val_main_v4 (F := Ideal) x1 (ix2 p k)) = 1#1).card := by
  unfold val_main_v15 val_main_v14 val_main_c_1
  exact rowcount_at (val_main_v8 (F := Ideal) x1) p

/-- The gradient array at (p, q): the sum of the two masked terms over row p's integer counts. -/
theorem grad_at (p q : Fin 4096) :
    val_main_v58 (F := Ideal) x0 x1 (ix2 p q)
      = gradMasked (val_main_v4 (F := Ideal) x1 (ix2 p q)) (val_main_v6 (F := Ideal) x0 (ix2 p q)) (x0 (ix2 p q))
          (val_main_v10 (F := Ideal) x0 x1 (ix1 p)) (val_main_v15 (F := Ideal) x1 (ix1 p)) := by
  simp only [val_main_v58_apply, val_main_v56_apply, val_main_v57_apply, val_main_v7_apply, val_main_v8_apply,
    val_main_v44_apply, val_main_v41_apply, val_main_v40_apply, val_main_cst_11_apply, val_main_v39_apply,
    val_main_v38_apply, val_main_cst_10_apply, val_main_v37_apply, val_main_v36_apply, val_main_cst_9_apply,
    val_main_v35_apply, val_main_v34_apply, val_main_v22_apply, val_main_v21_apply, val_main_cst_4_apply,
    val_main_v20_apply, val_main_v19_apply, val_main_cst_3_apply,
    val_main_v43_apply, val_main_v42_apply, val_main_v13_apply, val_main_v12_apply, val_main_v11_apply, val_main_c_0_apply,
    val_main_v55_apply, val_main_v52_apply, val_main_v51_apply, val_main_cst_14_apply, val_main_v50_apply,
    val_main_v49_apply, val_main_cst_13_apply, val_main_v48_apply, val_main_v47_apply, val_main_cst_12_apply,
    val_main_v46_apply, val_main_v45_apply, val_main_v26_apply, val_main_v25_apply, val_main_cst_6_apply,
    val_main_v24_apply, val_main_v23_apply, val_main_cst_5_apply,
    val_main_v54_apply, val_main_v53_apply, val_main_v18_apply, val_main_v17_apply, val_main_v16_apply, val_main_c_2_apply,
    val_main_call2_v1_apply, val_main_call2_v0_apply, val_main_cst_15_apply,
    val_main_call3_v1_apply, val_main_call3_v0_apply, val_main_cst_16_apply]
  have e : idx_main_v42 (idx_main_v43 (ix2 p q)) = ix1 p := funext fun a => Fin.ext (by match a with | ⟨0, _⟩ => rfl)
  have e' : idx_main_v53 (idx_main_v54 (ix2 p q)) = ix1 p := funext fun a => Fin.ext (by match a with | ⟨0, _⟩ => rfl)
  rw [e, e']
  rfl

end Cert.PairRef

end
-- ==== Proof.RefArray.lean ====
/-
  The reference's two arrays are the loss array and, for a finite matrix, the gradient array.
-/
import proofs.«163431_g73469710566012_cont_9to1_m_1373_5_alg».proof.Proof.RefEntry
import proofs.«163431_g73469710566012_cont_9to1_m_1373_5_alg».proof.Proof.PairSpec

noncomputable section

namespace Cert.PairRef

open Idealize.ShloMosaic Idealize.ShloMosaic.ValueIdx Cert.ReferenceIdeal Cert.ReferenceIdeal.Read Cert.PairMath Cert.PairSpec

variable (x0 : (⟨S4096x4096, .f32⟩ : BufTy).Contents (Elt Ideal)) (x1 : (⟨S4096, .i32⟩ : BufTy).Contents (Elt Ideal))

/-- The reference's loss, before it is flattened, is the loss array: its masked sum has one live term. -/
theorem loss_arr : val_main_v33 (F := Ideal) x0 x1 = lossArr x0 x1 := by
  funext i
  obtain ⟨p, q, rfl⟩ : ∃ (p q : Fin 4096), i = ix2 p q := ⟨i 0, i 1, eq_ix2 i⟩
  rw [loss_at, same_at, lt_at, lossArr_ix2, lossEntry_masked]
  rfl

/-- The reference's gradient, before it is flattened, is the gradient array when every similarity is finite: its
    integer row counts are the float sums, and the logistic weights and quotients agree over the reals. -/
theorem grad_arr (hx : ∀ i, ∃ r : ℝ, (x0 i : EReal) = (r : EReal)) : val_main_v58 (F := Ideal) x0 x1 = gradArr x0 x1 := by
  funext i
  obtain ⟨p, q, rfl⟩ : ∃ (p q : Fin 4096), i = ix2 p q := ⟨i 0, i 1, eq_ix2 i⟩
  rw [grad_at, cntPos_at, cntNeg_at, gradArr_ix2, gradEntry_masked x0 x1 hx]
  simp only [same_at, lt_at]
  rfl

end Cert.PairRef

end
-- ==== Proof.Finite.lean ====
/-
  Under the precondition every similarity is a real number.

  The precondition says that |x| < +inf holds at every entry of the similarity matrix ("all" is a reduce by "and"
  that came out 1). An extended real whose absolute value max(x, -x) is below the top element is neither infinity.
-/
import proofs.«163431_g73469710566012_cont_9to1_m_1373_5_alg».proof.Proof.Gen.Pre_finite_inputs
import Idealize.ShloMosaic.Lib.ReduceAll
import Idealize.ShloMosaic.Lib.IdealHost
import Idealize.ShloMosaic.Lib.ValueIdx

noncomputable section

namespace Cert.PairFinite

open Idealize.ShloMosaic Idealize.ShloMosaic.ValueIdx Cert.Pre_finite_inputs

instance : Subsingleton S_.Idx := ⟨fun a b => funext fun d => d.elim0⟩

theorem top_word : (Ideal.ofBits .f32 0x7F800000#32 : EReal) = ⊤ := by simp [Ideal.ofBits, Ideal.ieee]

/-- An extended real with max(x, -x) < ⊤ is a real. -/
theorem real_of_abs_lt_top (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

/-- The precondition at a matrix and a class vector makes every entry of the matrix a real. -/
theorem finite_of_pre (x : FVec Ideal S4096x4096 .f32) (t : IVec S4096 32)
    (h : fn (F := Ideal) x t = fun _ => 1#1) (i : S4096x4096.Idx) : ∃ r : ℝ, (x i : EReal) = (r : EReal) := by
  have h0 := congrFun h ix0
  dsimp only [fn] at h0
  have hi := Host.reduce_andi_all _ _ _ _ _ h0 i
  have hc : cmpf (F := Ideal) .olt (Host.absf x)
      (broadcastInDim S4096x4096 ![] Facts.bcast_S_S4096x4096 (constant (F := Ideal) S_ .f32 0x7F800000#32)) i
      = Ideal.cmp .olt (max (x i) (-(x i))) ⊤ := by
    show Ideal.cmp .olt (max (x i) (-(x i))) (broadcastInDim S4096x4096 ![] Facts.bcast_S_S4096x4096 (constant (F := Ideal) S_ .f32 0x7F800000#32) i) = _
    rw [broadcastInDim_scalar_apply]
    show Ideal.cmp .olt _ (Ideal.ofBits .f32 0x7F800000#32) = _
    rw [top_word]
  rw [hc] at hi
  exact real_of_abs_lt_top _ hi

end Cert.PairFinite

end
-- ==== Proof.lean ====
/-
  The binomial-deviance pair loss over a 4096 × 4096 similarity matrix x and a class vector t, and the gradient of
  each row's mean loss, both flattened row after row.

  Entry (p, q) is a positive pair when t p = t q and x(p, q) < 1 and a negative pair when t p ≠ t q. The loss entry is
  log(1 + exp(-2 (x - 1/2))) on a positive pair, log(1 + exp(40 (x - 1/2))) on a negative pair and 0 otherwise; the
  gradient entry is the logistic weight of the same exponent times -2 / max(#positives of row p, 1), respectively
  40 / max(#negatives of row p, 1).

  One program computes this 128 rows at a time: it nests the two choices, writes the weight as 1 - 1/(1 + e^u), counts
  by summing 0/1 floats along a row, takes the negatives as 4096 minus the same-class count, and multiplies by the
  quotient. The other works on the whole matrix: it adds two masked terms, writes the weight as 1/(1 + e^(-u)), counts
  in 32-bit integers, and divides the product by the count. On the extended reals the two agree at every entry when
  every similarity is finite, which is the precondition: the masked sum has one live term, log1p(e) is log(1 + e),
  1 - 1/(1 + e^u) = 1/(1 + e^(-u)) for real u, a float sum of indicators and an integer sum of at most 4096 ones are the
  same count, and w · (c / n) = (c · w) / n for real n ≥ 1. The 32 row blocks tile the matrix, each row's counts run over
  columns the block holds entirely, and both programs end with the same flattening.
-/
import proofs.«163431_g73469710566012_cont_9to1_m_1373_5_alg».proof.Defs
import proofs.«163431_g73469710566012_cont_9to1_m_1373_5_alg».proof.Proof.Gen.Kernel
import proofs.«163431_g73469710566012_cont_9to1_m_1373_5_alg».proof.Proof.Gen.Kernel.Skeleton
import proofs.«163431_g73469710566012_cont_9to1_m_1373_5_alg».proof.Proof.Gen.Kernel.Launch
import proofs.«163431_g73469710566012_cont_9to1_m_1373_5_alg».proof.Proof.Gen.Kernel.Points
import proofs.«163431_g73469710566012_cont_9to1_m_1373_5_alg».proof.Proof.Gen.Kernel.Frame
import proofs.«163431_g73469710566012_cont_9to1_m_1373_5_alg».proof.Proof.Gen.KernelIdeal
import proofs.«163431_g73469710566012_cont_9to1_m_1373_5_alg».proof.Proof.Gen.KernelIdeal.Skeleton
import proofs.«163431_g73469710566012_cont_9to1_m_1373_5_alg».proof.Proof.Gen.KernelIdeal.Launch
import proofs.«163431_g73469710566012_cont_9to1_m_1373_5_alg».proof.Proof.Gen.KernelIdeal.Points
import proofs.«163431_g73469710566012_cont_9to1_m_1373_5_alg».proof.Proof.Gen.KernelIdeal.Frame
import proofs.«163431_g73469710566012_cont_9to1_m_1373_5_alg».proof.Proof.Gen.ReferenceIdeal
import proofs.«163431_g73469710566012_cont_9to1_m_1373_5_alg».proof.Proof.Gen.ReferenceIdeal.Run
import proofs.«163431_g73469710566012_cont_9to1_m_1373_5_alg».proof.Proof.Gen.ReferenceIdeal.Read
import proofs.«163431_g73469710566012_cont_9to1_m_1373_5_alg».proof.Proof.Gen.Pre_finite_inputs
import proofs.«163431_g73469710566012_cont_9to1_m_1373_5_alg».proof.Proof.KernelRun
import proofs.«163431_g73469710566012_cont_9to1_m_1373_5_alg».proof.Proof.RefArray
import proofs.«163431_g73469710566012_cont_9to1_m_1373_5_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The whole-matrix program runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- Both programs end with the flattened loss array and the flattened gradient array of the arguments: the blockwise
    one by its run, the whole-matrix one by its run read stage by stage, the gradient's agreement resting on the
    similarities being finite. -/
theorem algebraic : Cert.algebraic_KernelIdeal_ReferenceIdeal := by
  intro m ρ m' ρ' hpre hagree
  refine ⟨fun c => Cert.PairKernel.flat (Cert.PairSpec.lossArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
      fun c => Cert.PairKernel.flat (Cert.PairSpec.gradArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
      Cert.PairKernel.run m ρ, ?_⟩
  refine (θ_run Cert.ReferenceIdeal.defs _ _).mono (fun _ h c => ?_) (Cert.ReferenceIdeal.Value.run (F := Ideal) m' ρ')
  obtain ⟨h1, h2, h3, h4⟩ := h c
  have hx := Cert.PairFinite.finite_of_pre _ _ (hpre c)
  refine ⟨h1.trans ((Cert.ReferenceIdeal.Read.val_main_v59_eq _ _).trans ?_),
    h2.trans ((Cert.ReferenceIdeal.Read.val_main_v60_eq _ _).trans ?_), h3, h4⟩
  · unfold Cert.ReferenceIdeal.Read.val_main_v59
    rw [(hagree c).1, (hagree c).2, Cert.PairRef.loss_arr]
    rfl
  · unfold Cert.ReferenceIdeal.Read.val_main_v60
    rw [(hagree c).1, (hagree c).2, Cert.PairRef.grad_arr _ _ hx]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
